-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn_part1 {F : FTy → Type} [FloatOps F] (main_v13 : IVec S_ 1) (main_v16 : IVec S8x64x256x256 1) : IVec S_ 1 :=
  let main_c_5 : IVec S_ 1 := constantI S_ 1 1#1
  let main_v17 : IVec S_ 1 := (fun x v => Host.reduce IntOp.andi x v reducesTo_S8x64x256x256_S_d0_1_2_3 h_S_) main_v16 main_c_5
  let main_v18 : IVec S_ 1 := andi main_v13 main_v17
  main_v18

def fn {F : FTy → Type} [FloatOps F] (main_arg0 : FVec F S8x64x256x256 .f32) (main_arg1 : FVec F S8x64x256x256 .f32) (main_arg2 : FVec F S8x64x256x256 .f32) (main_arg3 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x64x256x256 .f32 := Host.absf main_arg1
  let main_cst_0 : FVec F S_ .f32 := constant S_ .f32 0x7F800000#32
  let main_v5 : FVec F S8x64x256x256 .f32 := broadcastInDim S8x64x256x256 ![] bcast_S_S8x64x256x256 main_cst_0
  let main_v6 : IVec S8x64x256x256 1 := cmpf .olt main_v4 main_v5
  let main_c_1 : IVec S_ 1 := constantI S_ 1 1#1
  let main_v7 : IVec S_ 1 := (fun x v => Host.reduce IntOp.andi x v reducesTo_S8x64x256x256_S_d0_1_2_3 h_S_) main_v6 main_c_1
  let main_v8 : IVec S_ 1 := andi main_v3 main_v7
  let main_v9 : FVec F S8x64x256x256 .f32 := Host.absf main_arg2
  let main_cst_2 : FVec F S_ .f32 := constant S_ .f32 0x7F800000#32
  let main_v10 : FVec F S8x64x256x256 .f32 := broadcastInDim S8x64x256x256 ![] bcast_S_S8x64x256x256 main_cst_2
  let main_v11 : IVec S8x64x256x256 1 := cmpf .olt main_v9 main_v10
  let main_c_3 : IVec S_ 1 := constantI S_ 1 1#1
  let main_v12 : IVec S_ 1 := (fun x v => Host.reduce IntOp.andi x v reducesTo_S8x64x256x256_S_d0_1_2_3 h_S_) main_v11 main_c_3
  let main_v13 : IVec S_ 1 := andi main_v8 main_v12
  let main_v14 : FVec F S8x64x256x256 .f32 := Host.absf main_arg3
  let main_cst_4 : FVec F S_ .f32 := constant S_ .f32 0x7F800000#32
  let main_v15 : FVec F S8x64x256x256 .f32 := broadcastInDim S8x64x256x256 ![] bcast_S_S8x64x256x256 main_cst_4
  let main_v16 : IVec S8x64x256x256 1 := cmpf .olt main_v14 main_v15
  fn_part1 (F := F) main_v13 main_v16
-- ==== Kernel.lean ====
abbrev S8x64x256x256 : Shape := ⟨4, ![8, 64, 256, 256]⟩
abbrev S512x256x256 : Shape := ⟨3, ![512, 256, 256]⟩
abbrev S512x512x512 : Shape := ⟨3, ![512, 512, 512]⟩
abbrev S4x256x256 : Shape := ⟨3, ![4, 256, 256]⟩
abbrev S4x512x512 : Shape := ⟨3, ![4, 512, 512]⟩
abbrev S4x256x256x1 : Shape := ⟨4, ![4, 256, 256, 1]⟩
abbrev S4x256x256x2 : Shape := ⟨4, ![4, 256, 256, 2]⟩
abbrev S4x256x512 : Shape := ⟨3, ![4, 256, 512]⟩
abbrev S4x256x1x512 : Shape := ⟨4, ![4, 256, 1, 512]⟩
abbrev S4x256x2x512 : Shape := ⟨4, ![4, 256, 2, 512]⟩
abbrev S8x64x512x512 : Shape := ⟨4, ![8, 64, 512, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S512x256x256, .f32⟩
  | .hbm, ⟨5, _⟩ => ⟨S512x256x256, .f32⟩
  | .hbm, ⟨6, _⟩ => ⟨S512x256x256, .f32⟩
  | .hbm, ⟨7, _⟩ => ⟨S512x256x256, .f32⟩
  | .hbm, ⟨8, _⟩ => ⟨S512x512x512, .f32⟩
  | .hbm, ⟨9, _⟩ => ⟨S8x64x512x512, .f32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .f32⟩
  | .local _ .vmem, ⟨5, _⟩ => ⟨S4x256x256, .f32⟩
  | .local _ .vmem, ⟨6, _⟩ => ⟨S4x256x256, .f32⟩
  | .local _ .vmem, ⟨7, _⟩ => ⟨S4x256x256, .f32⟩
  | .local _ .vmem, ⟨8, _⟩ => ⟨S4x512x512, .f32⟩
  | .local _ .vmem, ⟨9, _⟩ => ⟨S4x512x512, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x256x256_S512x256x256 : S8x64x256x256.ShapeCasts S512x256x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  shapeCasts_S4x256x256_S4x256x256x1 : S4x256x256.ShapeCasts S4x256x256x1
  concatenates_S4x256x256x1_S4x256x256x1_S4x256x256x2_d3 : Shape.Concatenates [S4x256x256x1, S4x256x256x1] S4x256x256x2 3
  shapeCasts_S4x256x256x2_S4x256x512 : S4x256x256x2.ShapeCasts S4x256x512
  shapeCasts_S4x256x512_S4x256x1x512 : S4x256x512.ShapeCasts S4x256x1x512
  concatenates_S4x256x1x512_S4x256x1x512_S4x256x2x512_d2 : Shape.Concatenates [S4x256x1x512, S4x256x1x512] S4x256x2x512 2
  shapeCasts_S4x256x2x512_S4x512x512 : S4x256x2x512.ShapeCasts S4x512x512
  inb_S4x512x512_S4x512x512_0_0_0 : ∀ a, (![0, 0, 0] : Fin 3 → Nat) a + S4x512x512.size a ≤ S4x512x512.size a
  h_S4x512x512 : 0 < S4x512x512.numel
  shapeCasts_S512x512x512_S8x64x512x512 : S512x512x512.ShapeCasts S8x64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S512x256x256.size a
  hwx0_0 : ∀ i : grid0.Coords, EltTy.bits .f32 = 32 ∨ (Rect.block (s := S512x256x256) S4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S512x256x256.size a
  hwx0_1 : ∀ i : grid0.Coords, EltTy.bits .f32 = 32 ∨ (Rect.block (s := S512x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S512x256x256.size a
  hwx0_2 : ∀ i : grid0.Coords, EltTy.bits .f32 = 32 ∨ (Rect.block (s := S512x256x256) S4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S512x256x256.size a
  hwx0_3 : ∀ i : grid0.Coords, EltTy.bits .f32 = 32 ∨ (Rect.block (s := S512x256x256) S4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S512x512x512.size a
  hwx0_4 : ∀ i : grid0.Coords, EltTy.bits .f32 = 32 ∨ (Rect.block (s := S512x512x512) S4x512x512.size (cc0_transform_4 i) (hinb0_4 i)).WholeWords (EltTy.packing .f32)

variable [Facts₀]

abbrev win0_0 : Pipeline.Window sig grid0 :=
  Pipeline.Window.ofSpec (Memref.whole main_v0) S4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x256x256x1 : Shape := ⟨5, ![8, 64, 256, 256, 1]⟩
abbrev S8x64x256x256x2 : Shape := ⟨5, ![8, 64, 256, 256, 2]⟩
abbrev S8x64x256x512 : Shape := ⟨4, ![8, 64, 256, 512]⟩
abbrev S8x64x256x1x512 : Shape := ⟨5, ![8, 64, 256, 1, 512]⟩
abbrev S8x64x256x2x512 : Shape := ⟨5, ![8, 64, 256, 2, 512]⟩
abbrev S8x64x512x512 : Shape := ⟨4, ![8, 64, 512, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S8x64x256x256, .f32⟩
  | .hbm, ⟨3, _⟩ => ⟨S8x64x256x256, .f32⟩
  | .hbm, ⟨4, _⟩ => ⟨S8x64x256x256, .f32⟩
  | .hbm, ⟨5, _⟩ => ⟨S8x64x256x256, .f32⟩
  | .hbm, ⟨6, _⟩ => ⟨S_, .f32⟩
  | .hbm, ⟨7, _⟩ => ⟨S8x64x256x256, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S_, .f32⟩
  | .hbm, ⟨13, _⟩ => ⟨S8x64x256x256, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S_, .f32⟩
  | .hbm, ⟨19, _⟩ => ⟨S8x64x256x256, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S_, .f32⟩
  | .hbm, ⟨25, _⟩ => ⟨S8x64x256x256, .f32⟩
  | .hbm, ⟨26, _⟩ => ⟨S8x64x256x256, .f32⟩
  | .hbm, ⟨27, _⟩ => ⟨S8x64x256x256, .f32⟩
  | .hbm, ⟨28, _⟩ => ⟨S8x64x256x256x1, .f32⟩
  | .hbm, ⟨29, _⟩ => ⟨S8x64x256x256x1, .f32⟩
  | .hbm, ⟨30, _⟩ => ⟨S8x64x256x256x2, .f32⟩
  | .hbm, ⟨31, _⟩ => ⟨S8x64x256x512, .f32⟩
  | .hbm, ⟨32, _⟩ => ⟨S8x64x256x256x1, .f32⟩
  | .hbm, ⟨33, _⟩ => ⟨S8x64x256x256x1, .f32⟩
  | .hbm, ⟨34, _⟩ => ⟨S8x64x256x256x2, .f32⟩
  | .hbm, ⟨35, _⟩ => ⟨S8x64x256x512, .f32⟩
  | .hbm, ⟨36, _⟩ => ⟨S8x64x256x1x512, .f32⟩
  | .hbm, ⟨37, _⟩ => ⟨S8x64x256x1x512, .f32⟩
  | .hbm, ⟨38, _⟩ => ⟨S8x64x256x2x512, .f32⟩
  | .hbm, ⟨39, _⟩ => ⟨S8x64x512x512, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S_S8x64x256x256 : S_.BroadcastsInDim S8x64x256x256 (![] : Fin 0 → Fin S8x64x256x256.rank)
  bcast_S8x64x256x256_S8x64x256x256x1_0_1_2_3 : S8x64x256x256.BroadcastsInDim S8x64x256x256x1 (![0, 1, 2, 3] : Fin 4 → Fin S8x64x256x256x1.rank)
  concatenates_S8x64x256x256x1_S8x64x256x256x1_S8x64x256x256x2_d4 : Shape.Concatenates [S8x64x256x256x1, S8x64x256x256x1] S8x64x256x256x2 4
  shapeCasts_S8x64x256x256x2_S8x64x256x512 : S8x64x256x256x2.ShapeCasts S8x64x256x512
  bcast_S8x64x256x512_S8x64x256x1x512_0_1_2_4 : S8x64x256x512.BroadcastsInDim S8x64x256x1x512 (![0, 1, 2, 4] : Fin 4 → Fin S8x64x256x1x512.rank)
  concatenates_S8x64x256x1x512_S8x64x256x1x512_S8x64x256x2x512_d3 : Shape.Concatenates [S8x64x256x1x512, S8x64x256x1x512] S8x64x256x2x512 3
  shapeCasts_S8x64x256x2x512_S8x64x512x512 : S8x64x256x2x512.ShapeCasts S8x64x512x512

variable [Facts₀]

class Facts : Prop extends Facts₀ where

variable [Facts]
-- ==== Proof.Spec.lean ====
/-
  One step of the inverse Haar wavelet transform on images, as a function of the four sub-band arrays.

  From the low-pass band `a` and the three detail bands `b`, `c`, `d` (all of one shape, height 256 and width 256 per
  image) the step makes an image of twice the height and twice the width. The output pixel at row `R`, column `C` depends
  on the four inputs at ONE place, row `R / 2`, column `C / 2`, and on the two parities:
    even row, even column :  a - ((b + c) - d) · ½
    odd  row, even column :  a - ((b - c) + d) · ½
    even row, odd  column :  a + ((b - c) - d) · ½
    odd  row, odd  column :  a + ((b + c) + d) · ½
  The operations are kept exactly as written (this grouping of the sums, the product with the literal ½ on the right),
  so that nothing here depends on a law of the arithmetic: the statements hold at every float instance.

  The same function is stated at three shapes: on a block of 4 images (`blockResult`), on the 512 images laid out along one
  axis (`flatResult`), and on the 8 × 64 images laid out along two (`result`). `result_of_flat` says that merging the
  two leading axes of the inputs, taking `flatResult`, and splitting the leading axis of the output again is `result`:
  the row-major position of an image among the 512 is `64 · (first coordinate) + (second coordinate)` on both sides.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

variable {F : FTy → Type} [FloatOps F]

/-- The literal one half, the one float constant of both programs. -/
def half : F .f32 := FloatOps.ofBits .f32 0x3F000000#32

/-- Even row, even column. -/
def evenEven (a b c d : F .f32) : F .f32 :=
  FloatOps.subf a (FloatOps.mulf (FloatOps.subf (FloatOps.addf b c) d) half)
/-- Odd row, even column. -/
def oddEven (a b c d : F .f32) : F .f32 :=
  FloatOps.subf a (FloatOps.mulf (FloatOps.addf (FloatOps.subf b c) d) half)
/-- Even row, odd column. -/
def evenOdd (a b c d : F .f32) : F .f32 :=
  FloatOps.addf a (FloatOps.mulf (FloatOps.subf (FloatOps.subf b c) d) half)
/-- Odd row, odd column. -/
def oddOdd (a b c d : F .f32) : F .f32 :=
  FloatOps.addf a (FloatOps.mulf (FloatOps.addf (FloatOps.addf b c) d) half)

/-- The first of two values at parity 0, the second otherwise. -/
def sel {α : Type} (p : Nat) (u v : α) : α := if p = 0 then u else v

theorem sel_zero {α : Type} {p : Nat} (h : p = 0) (u v : α) : sel p u v = u := if_pos h
theorem sel_one {α : Type} {p : Nat} (h : p = 1) (u v : α) : sel p u v = v := if_neg (by omega)

/-- The output pixel at row parity `pr` and column parity `pc` from the four inputs at its place. -/
def pixel (pr pc : Nat) (a b c d : F .f32) : F .f32 :=
  sel pr (sel pc (evenEven a b c d) (evenOdd a b c d)) (sel pc (oddEven a b c d) (oddOdd a b c d))

/-! ## The shapes -/

abbrev Blk : Shape := ⟨3, ![4, 256, 256]⟩
abbrev BlkOut : Shape := ⟨3, ![4, 512, 512]⟩
abbrev Flat : Shape := ⟨3, ![512, 256, 256]⟩
abbrev FlatOut : Shape := ⟨3, ![512, 512, 512]⟩
abbrev Img : Shape := ⟨4, ![8, 64, 256, 256]⟩
abbrev ImgOut : Shape := ⟨4, ![8, 64, 512, 512]⟩

/-- The input place an output pixel of a block depends on: same image, half the row, half the column. -/
def blockPlace (j : BlkOut.Idx) : Blk.Idx :=
  ix3 (⟨(j 0).val, (j 0).isLt⟩ : Fin 4)
    (⟨(j 1).val / 2, by have h : (j 1).val < 512 := (j 1).isLt; omega⟩ : Fin 256)
    (⟨(j 2).val / 2, by have h : (j 2).val < 512 := (j 2).isLt; omega⟩ : Fin 256)

/-- The same on the 512 images along one axis. -/
def flatPlace (i : FlatOut.Idx) : Flat.Idx :=
  ix3 (⟨(i 0).val, (i 0).isLt⟩ : Fin 512)
    (⟨(i 1).val / 2, by have h : (i 1).val < 512 := (i 1).isLt; omega⟩ : Fin 256)
    (⟨(i 2).val / 2, by have h : (i 2).val < 512 := (i 2).isLt; omega⟩ : Fin 256)

/-- The same on the 8 × 64 images. -/
def place (i : ImgOut.Idx) : Img.Idx :=
  ix4 (⟨(i 0).val, (i 0).isLt⟩ : Fin 8) (⟨(i 1).val, (i 1).isLt⟩ : Fin 64)
    (⟨(i 2).val / 2, by have h : (i 2).val < 512 := (i 2).isLt; omega⟩ : Fin 256)
    (⟨(i 3).val / 2, by have h : (i 3).val < 512 := (i 3).isLt; omega⟩ : Fin 256)

/-- The step on a block of 4 images. -/
def blockResult (x0 x1 x2 x3 : Blk.Idx → F .f32) : BlkOut.Idx → F .f32 := fun j =>
  pixel ((j 1).val % 2) ((j 2).val % 2) (x0 (blockPlace j)) (x1 (blockPlace j)) (x2 (blockPlace j)) (x3 (blockPlace j))

/-- The step on 512 images along one axis. -/
def flatResult (a0 a1 a2 a3 : Flat.Idx → F .f32) : FlatOut.Idx → F .f32 := fun i =>
  pixel ((i 1).val % 2) ((i 2).val % 2) (a0 (flatPlace i)) (a1 (flatPlace i)) (a2 (flatPlace i)) (a3 (flatPlace i))

/-- The step on 8 × 64 images: the result both programs compute. -/
def result (a0 a1 a2 a3 : Img.Idx → F .f32) : ImgOut.Idx → F .f32 := fun i =>
  pixel ((i 2).val % 2) ((i 3).val % 2) (a0 (place i)) (a1 (place i)) (a2 (place i)) (a3 (place i))

/-! ## A block of the flat result -/

/-- Block `q` (images `4 q … 4 q + 3`) of the step on 512 images is the step on the four input blocks `q`: when each block
    `X` reads its array `A` at image `4 q + (image in block)`, same row and column, the output index `i` with image
    `4 q + (j's image)`, `j`'s row and column has `j`'s parities and its place is `j`'s place moved the same way. -/
theorem block_of_flat (A0 A1 A2 A3 : Flat.Idx → F .f32) (X0 X1 X2 X3 : Blk.Idx → F .f32) (q : Nat)
    (hX0 : ∀ (y : Blk.Idx) (k : Flat.Idx), (k 0).val = q * 4 + (y 0).val → (k 1).val = (y 1).val → (k 2).val = (y 2).val → X0 y = A0 k)
    (hX1 : ∀ (y : Blk.Idx) (k : Flat.Idx), (k 0).val = q * 4 + (y 0).val → (k 1).val = (y 1).val → (k 2).val = (y 2).val → X1 y = A1 k)
    (hX2 : ∀ (y : Blk.Idx) (k : Flat.Idx), (k 0).val = q * 4 + (y 0).val → (k 1).val = (y 1).val → (k 2).val = (y 2).val → X2 y = A2 k)
    (hX3 : ∀ (y : Blk.Idx) (k : Flat.Idx), (k 0).val = q * 4 + (y 0).val → (k 1).val = (y 1).val → (k 2).val = (y 2).val → X3 y = A3 k)
    (j : BlkOut.Idx) (i : FlatOut.Idx)
    (h0 : (i 0).val = q * 4 + (j 0).val) (h1 : (i 1).val = (j 1).val) (h2 : (i 2).val = (j 2).val) :
    blockResult X0 X1 X2 X3 j = flatResult A0 A1 A2 A3 i := by
  have p0 : (flatPlace i 0).val = q * 4 + (blockPlace j 0).val := h0
  have p1 : (flatPlace i 1).val = (blockPlace j 1).val := by
    show (i 1).val / 2 = (j 1).val / 2
    rw [h1]
  have p2 : (flatPlace i 2).val = (blockPlace j 2).val := by
    show (i 2).val / 2 = (j 2).val / 2
    rw [h2]
  show pixel ((j 1).val % 2) ((j 2).val % 2) (X0 (blockPlace j)) (X1 (blockPlace j)) (X2 (blockPlace j)) (X3 (blockPlace j))
    = pixel ((i 1).val % 2) ((i 2).val % 2) (A0 (flatPlace i)) (A1 (flatPlace i)) (A2 (flatPlace i)) (A3 (flatPlace i))
  rw [hX0 _ _ p0 p1 p2, hX1 _ _ p0 p1 p2, hX2 _ _ p0 p1 p2, hX3 _ _ p0 p1 p2, h1, h2]

/-! ## Merging and splitting the two leading axes -/

/-- The image among the 512 that the pair of leading coordinates names. -/
def flatOf (i : ImgOut.Idx) : FlatOut.Idx :=
  ix3 (⟨(i 0).val * 64 + (i 1).val, by
        have h0 : (i 0).val < 8 := (i 0).isLt; have h1 : (i 1).val < 64 := (i 1).isLt; omega⟩ : Fin 512)
    (⟨(i 2).val, (i 2).isLt⟩ : Fin 512) (⟨(i 3).val, (i 3).isLt⟩ : Fin 512)

/-- An input with its leading axes merged, read at the place of the merged output index, is the input at the place of the
    output index: both are at row-major position `((64 i₀ + i₁) · 256 + i₂ / 2) · 256 + i₃ / 2`. -/
theorem merged_at_place {α : Type} (a : Img.Idx → α) (h : Img.ShapeCasts Flat) (i : ImgOut.Idx) :
    shapeCast Flat a h (flatPlace (flatOf i)) = a (place i) := by
  refine shapeCast_apply a h _ (place i) ?_
  rw [Shape.rowMajor_val_four, Shape.rowMajor_val_three]
  show (((i 0).val * 64 + (i 1).val) * 256 + (i 2).val / 2) * 256 + (i 3).val / 2
    = (((i 0).val * 64 + (i 1).val) * 256 + (i 2).val / 2) * 256 + (i 3).val / 2
  rfl

/-- Merging the leading axes of the inputs, taking the step on 512 images, and splitting the leading axis of the output is
    the step on 8 × 64 images: the split reads the flat output at the image `64 i₀ + i₁`, same row and column, so the
    parities are the same and the inputs are read at the same place. -/
theorem result_of_flat (a0 a1 a2 a3 : Img.Idx → F .f32) (h : Img.ShapeCasts Flat) (h' : FlatOut.ShapeCasts ImgOut) :
    shapeCast ImgOut (flatResult (shapeCast Flat a0 h) (shapeCast Flat a1 h) (shapeCast Flat a2 h) (shapeCast Flat a3 h)) h'
      = result a0 a1 a2 a3 := by
  funext i
  refine (shapeCast_apply _ h' i (flatOf i) ?_).trans ?_
  · rw [Shape.rowMajor_val_three, Shape.rowMajor_val_four]
    show (((i 0).val * 64 + (i 1).val) * 512 + (i 2).val) * 512 + (i 3).val
      = (((i 0).val * 64 + (i 1).val) * 512 + (i 2).val) * 512 + (i 3).val
    rfl
  · show pixel ((i 2).val % 2) ((i 3).val % 2) (shapeCast Flat a0 h (flatPlace (flatOf i)))
        (shapeCast Flat a1 h (flatPlace (flatOf i))) (shapeCast Flat a2 h (flatPlace (flatOf i)))
        (shapeCast Flat a3 h (flatPlace (flatOf i)))
      = pixel ((i 2).val % 2) ((i 3).val % 2) (a0 (place i)) (a1 (place i)) (a2 (place i)) (a3 (place i))
    rw [merged_at_place a0 h i, merged_at_place a1 h i, merged_at_place a2 h i, merged_at_place a3 h i]

end Cert.Haar

end
-- ==== Proof.Interleave.lean ====
/-
  Interleaving two arrays along an axis, read at an index.

  Both programs interleave by the same two layout operations: give each of two arrays a new axis of extent 1, join them
  along that axis (extent 2), and merge the new axis into a neighbour by a reshape. When the new axis is the last one
  (columns), position `C` of the merged axis is pair `C / 2`, member `C % 2`; when it sits right after the row axis
  (rows), row `R` of the merged axis is pair `R / 2`, member `R % 2`, every column kept. So the merged array reads the
  first array at even positions and the second at odd ones — `Cert.Haar.sel` of the parity.

  One lemma per interleave and per family of shapes: blocks of 4 images (ranks 3 and 4) and the 8 × 64 images (ranks 4
  and 5). Each takes the two pieces already carrying their unit axis, whatever operation gave it to them, and names the
  index at which they are read. The row-major positions on the two sides of each reshape are spelt out and compared by
  linear arithmetic with `/ 2` and `% 2`.
-/
import proofs.«124878_j67044439490878_2_alg».proof.Proof.Spec

noncomputable section

namespace Cert.Haar

open Idealize.ShloMosaic Idealize.ShloMosaic.ValueIdx

variable {α : Type}

/-! ## Blocks of 4 images -/

abbrev BlkU : Shape := ⟨4, ![4, 256, 256, 1]⟩
abbrev BlkP : Shape := ⟨4, ![4, 256, 256, 2]⟩
abbrev BlkW : Shape := ⟨3, ![4, 256, 512]⟩
abbrev BlkWU : Shape := ⟨4, ![4, 256, 1, 512]⟩
abbrev BlkWP : Shape := ⟨4, ![4, 256, 2, 512]⟩

/-- Where the column interleave reads its pieces: same image and row, pair `C / 2`, the unit axis at 0. -/
def blkColIdx (j : BlkW.Idx) : BlkU.Idx :=
  ix4 (⟨(j 0).val, (j 0).isLt⟩ : Fin 4) (⟨(j 1).val, (j 1).isLt⟩ : Fin 256)
    (⟨(j 2).val / 2, by have h : (j 2).val < 512 := (j 2).isLt; omega⟩ : Fin 256) (⟨0, Nat.one_pos⟩ : Fin 1)

/-- Columns, on a block: position `C` reads the first piece when `C` is even, the second when odd, at pair `C / 2`. -/
theorem blk_cols_apply (e1 e2 : BlkU.Idx → α) (hc : Shape.Concatenates [BlkU, BlkU] BlkP 3) (h : BlkP.ShapeCasts BlkW)
    (j : BlkW.Idx) :
    shapeCast BlkW (concatenate BlkP 3 [⟨BlkU, e1⟩, ⟨BlkU, e2⟩] hc) h j
      = sel ((j 2).val % 2) (e1 (blkColIdx j)) (e2 (blkColIdx j)) := by
  have h0 : (j 0).val < 4 := (j 0).isLt
  have h1 : (j 1).val < 256 := (j 1).isLt
  have h2 : (j 2).val < 512 := (j 2).isLt
  refine (shapeCast_apply _ h j (ix4 (⟨(j 0).val, h0⟩ : Fin 4) (⟨(j 1).val, h1⟩ : Fin 256)
    (⟨(j 2).val / 2, by omega⟩ : Fin 256) (⟨(j 2).val % 2, by omega⟩ : Fin 2)) ?_).trans ?_
  · rw [Shape.rowMajor_val_four, Shape.rowMajor_val_three]
    show (((j 0).val * 256 + (j 1).val) * 256 + (j 2).val / 2) * 2 + (j 2).val % 2
      = ((j 0).val * 256 + (j 1).val) * 512 + (j 2).val
    omega
  · rcases Nat.mod_two_eq_zero_or_one (j 2).val with hp | hp
    · rw [sel_zero hp]
      exact concatenate_pair_apply_left (t := BlkP) (s₁ := BlkU) (s₂ := BlkU) (3 : Fin 4) e1 e2 hc _ (rfl : BlkU.rank = BlkP.rank) (blkColIdx j) (fun b => match b with
        | ⟨0, _⟩ => rfl
        | ⟨1, _⟩ => rfl
        | ⟨2, _⟩ => rfl
        | ⟨3, _⟩ => by show 0 = (j 2).val % 2; omega)
    · rw [sel_one hp]
      exact concatenate_pair_apply_right (t := BlkP) (s₁ := BlkU) (s₂ := BlkU) (3 : Fin 4) e1 e2 hc _ (rfl : BlkU.rank = BlkP.rank) (rfl : BlkU.rank = BlkP.rank) (blkColIdx j) (fun b hb => match b, hb with
        | ⟨0, _⟩, _ => rfl
        | ⟨1, _⟩, _ => rfl
        | ⟨2, _⟩, _ => rfl
        | ⟨3, _⟩, hb => absurd rfl hb) (by show 0 + 1 = (j 2).val % 2; omega)

/-- Where the row interleave reads its pieces: same image, pair `R / 2`, the unit axis at 0, same column. -/
def blkRowIdx (j : BlkOut.Idx) : BlkWU.Idx :=
  ix4 (⟨(j 0).val, (j 0).isLt⟩ : Fin 4) (⟨(j 1).val / 2, by have h : (j 1).val < 512 := (j 1).isLt; omega⟩ : Fin 256)
    (⟨0, Nat.one_pos⟩ : Fin 1) (⟨(j 2).val, (j 2).isLt⟩ : Fin 512)

/-- Rows, on a block: row `R` reads the first piece when `R` is even, the second when odd, at pair `R / 2`. -/
theorem blk_rows_apply (e1 e2 : BlkWU.Idx → α) (hc : Shape.Concatenates [BlkWU, BlkWU] BlkWP 2) (h : BlkWP.ShapeCasts BlkOut)
    (j : BlkOut.Idx) :
    shapeCast BlkOut (concatenate BlkWP 2 [⟨BlkWU, e1⟩, ⟨BlkWU, e2⟩] hc) h j
      = sel ((j 1).val % 2) (e1 (blkRowIdx j)) (e2 (blkRowIdx j)) := by
  have h0 : (j 0).val < 4 := (j 0).isLt
  have h1 : (j 1).val < 512 := (j 1).isLt
  have h2 : (j 2).val < 512 := (j 2).isLt
  refine (shapeCast_apply _ h j (ix4 (⟨(j 0).val, h0⟩ : Fin 4) (⟨(j 1).val / 2, by omega⟩ : Fin 256)
    (⟨(j 1).val % 2, by omega⟩ : Fin 2) (⟨(j 2).val, h2⟩ : Fin 512)) ?_).trans ?_
  · rw [Shape.rowMajor_val_four, Shape.rowMajor_val_three]
    show (((j 0).val * 256 + (j 1).val / 2) * 2 + (j 1).val % 2) * 512 + (j 2).val
      = ((j 0).val * 512 + (j 1).val) * 512 + (j 2).val
    omega
  · rcases Nat.mod_two_eq_zero_or_one (j 1).val with hp | hp
    · rw [sel_zero hp]
      exact concatenate_pair_apply_left (t := BlkWP) (s₁ := BlkWU) (s₂ := BlkWU) (2 : Fin 4) e1 e2 hc _ (rfl : BlkWU.rank = BlkWP.rank) (blkRowIdx j) (fun b => match b with
        | ⟨0, _⟩ => rfl
        | ⟨1, _⟩ => rfl
        | ⟨2, _⟩ => by show 0 = (j 1).val % 2; omega
        | ⟨3, _⟩ => rfl)
    · rw [sel_one hp]
      exact concatenate_pair_apply_right (t := BlkWP) (s₁ := BlkWU) (s₂ := BlkWU) (2 : Fin 4) e1 e2 hc _ (rfl : BlkWU.rank = BlkWP.rank) (rfl : BlkWU.rank = BlkWP.rank) (blkRowIdx j) (fun b hb => match b, hb with
        | ⟨0, _⟩, _ => rfl
        | ⟨1, _⟩, _ => rfl
        | ⟨2, _⟩, hb => absurd rfl hb
        | ⟨3, _⟩, _ => rfl) (by show 0 + 1 = (j 1).val % 2; omega)

/-! ### The unit axes the kernel adds by a reshape -/

/-- The input place of a block's column interleave: same image and row, pair `C / 2`. -/
def blkColPlace (j : BlkW.Idx) : Blk.Idx :=
  ix3 (⟨(j 0).val, (j 0).isLt⟩ : Fin 4) (⟨(j 1).val, (j 1).isLt⟩ : Fin 256)
    (⟨(j 2).val / 2, by have h : (j 2).val < 512 := (j 2).isLt; omega⟩ : Fin 256)

/-- The input place of a block's row interleave: same image, pair `R / 2`, same column. -/
def blkRowPlace (j : BlkOut.Idx) : BlkW.Idx :=
  ix3 (⟨(j 0).val, (j 0).isLt⟩ : Fin 4) (⟨(j 1).val / 2, by have h : (j 1).val < 512 := (j 1).isLt; omega⟩ : Fin 256)
    (⟨(j 2).val, (j 2).isLt⟩ : Fin 512)

/-- A trailing unit axis added by a reshape: at 0 on that axis it reads the array at the other coordinates. -/
theorem blk_unit_cols (u : Blk.Idx → α) (h : Blk.ShapeCasts BlkU) (j : BlkW.Idx) :
    shapeCast BlkU u h (blkColIdx j) = u (blkColPlace j) := by
  refine shapeCast_apply u h _ (blkColPlace j) ?_
  rw [Shape.rowMajor_val_three, Shape.rowMajor_val_four]
  show ((j 0).val * 256 + (j 1).val) * 256 + (j 2).val / 2
    = (((j 0).val * 256 + (j 1).val) * 256 + (j 2).val / 2) * 1 + 0
  omega

/-- A unit axis added before the last one by a reshape: at 0 on that axis it reads the array at the other coordinates. -/
theorem blk_unit_rows (w : BlkW.Idx → α) (h : BlkW.ShapeCasts BlkWU) (j : BlkOut.Idx) :
    shapeCast BlkWU w h (blkRowIdx j) = w (blkRowPlace j) := by
  refine shapeCast_apply w h _ (blkRowPlace j) ?_
  rw [Shape.rowMajor_val_three, Shape.rowMajor_val_four]
  show ((j 0).val * 256 + (j 1).val / 2) * 512 + (j 2).val
    = (((j 0).val * 256 + (j 1).val / 2) * 1 + 0) * 512 + (j 2).val
  omega

/-- Halving the row and then the column is the place an output pixel of a block depends on. -/
theorem blkColPlace_rowPlace (j : BlkOut.Idx) : blkColPlace (blkRowPlace j) = blockPlace j := rfl

/-! ## The 8 × 64 images -/

abbrev ImgU : Shape := ⟨5, ![8, 64, 256, 256, 1]⟩
abbrev ImgP : Shape := ⟨5, ![8, 64, 256, 256, 2]⟩
abbrev ImgW : Shape := ⟨4, ![8, 64, 256, 512]⟩
abbrev ImgWU : Shape := ⟨5, ![8, 64, 256, 1, 512]⟩
abbrev ImgWP : Shape := ⟨5, ![8, 64, 256, 2, 512]⟩

/-- Where the column interleave reads its pieces: same image and row, pair `C / 2`, the unit axis at 0. -/
def imgColIdx (i : ImgW.Idx) : ImgU.Idx :=
  ix5 (⟨(i 0).val, (i 0).isLt⟩ : Fin 8) (⟨(i 1).val, (i 1).isLt⟩ : Fin 64) (⟨(i 2).val, (i 2).isLt⟩ : Fin 256)
    (⟨(i 3).val / 2, by have h : (i 3).val < 512 := (i 3).isLt; omega⟩ : Fin 256) (⟨0, Nat.one_pos⟩ : Fin 1)

/-- Columns, on the 8 × 64 images. -/
theorem img_cols_apply (e1 e2 : ImgU.Idx → α) (hc : Shape.Concatenates [ImgU, ImgU] ImgP 4) (h : ImgP.ShapeCasts ImgW)
    (i : ImgW.Idx) :
    shapeCast ImgW (concatenate ImgP 4 [⟨ImgU, e1⟩, ⟨ImgU, e2⟩] hc) h i
      = sel ((i 3).val % 2) (e1 (imgColIdx i)) (e2 (imgColIdx i)) := by
  have h0 : (i 0).val < 8 := (i 0).isLt
  have h1 : (i 1).val < 64 := (i 1).isLt
  have h2 : (i 2).val < 256 := (i 2).isLt
  have h3 : (i 3).val < 512 := (i 3).isLt
  refine (shapeCast_apply _ h i (ix5 (⟨(i 0).val, h0⟩ : Fin 8) (⟨(i 1).val, h1⟩ : Fin 64) (⟨(i 2).val, h2⟩ : Fin 256)
    (⟨(i 3).val / 2, by omega⟩ : Fin 256) (⟨(i 3).val % 2, by omega⟩ : Fin 2)) ?_).trans ?_
  · rw [Shape.rowMajor_val_five, Shape.rowMajor_val_four]
    show ((((i 0).val * 64 + (i 1).val) * 256 + (i 2).val) * 256 + (i 3).val / 2) * 2 + (i 3).val % 2
      = (((i 0).val * 64 + (i 1).val) * 256 + (i 2).val) * 512 + (i 3).val
    omega
  · rcases Nat.mod_two_eq_zero_or_one (i 3).val with hp | hp
    · rw [sel_zero hp]
      exact concatenate_pair_apply_left (t := ImgP) (s₁ := ImgU) (s₂ := ImgU) (4 : Fin 5) e1 e2 hc _ (rfl : ImgU.rank = ImgP.rank) (imgColIdx i) (fun b => match b with
        | ⟨0, _⟩ => rfl
        | ⟨1, _⟩ => rfl
        | ⟨2, _⟩ => rfl
        | ⟨3, _⟩ => rfl
        | ⟨4, _⟩ => by show 0 = (i 3).val % 2; omega)
    · rw [sel_one hp]
      exact concatenate_pair_apply_right (t := ImgP) (s₁ := ImgU) (s₂ := ImgU) (4 : Fin 5) e1 e2 hc _ (rfl : ImgU.rank = ImgP.rank) (rfl : ImgU.rank = ImgP.rank) (imgColIdx i) (fun b hb => match b, hb with
        | ⟨0, _⟩, _ => rfl
        | ⟨1, _⟩, _ => rfl
        | ⟨2, _⟩, _ => rfl
        | ⟨3, _⟩, _ => rfl
        | ⟨4, _⟩, hb => absurd rfl hb) (by show 0 + 1 = (i 3).val % 2; omega)

/-- Where the row interleave reads its pieces: same image, pair `R / 2`, the unit axis at 0, same column. -/
def imgRowIdx (i : ImgOut.Idx) : ImgWU.Idx :=
  ix5 (⟨(i 0).val, (i 0).isLt⟩ : Fin 8) (⟨(i 1).val, (i 1).isLt⟩ : Fin 64)
    (⟨(i 2).val / 2, by have h : (i 2).val < 512 := (i 2).isLt; omega⟩ : Fin 256) (⟨0, Nat.one_pos⟩ : Fin 1)
    (⟨(i 3).val, (i 3).isLt⟩ : Fin 512)

/-- Rows, on the 8 × 64 images. -/
theorem img_rows_apply (e1 e2 : ImgWU.Idx → α) (hc : Shape.Concatenates [ImgWU, ImgWU] ImgWP 3) (h : ImgWP.ShapeCasts ImgOut)
    (i : ImgOut.Idx) :
    shapeCast ImgOut (concatenate ImgWP 3 [⟨ImgWU, e1⟩, ⟨ImgWU, e2⟩] hc) h i
      = sel ((i 2).val % 2) (e1 (imgRowIdx i)) (e2 (imgRowIdx i)) := by
  have h0 : (i 0).val < 8 := (i 0).isLt
  have h1 : (i 1).val < 64 := (i 1).isLt
  have h2 : (i 2).val < 512 := (i 2).isLt
  have h3 : (i 3).val < 512 := (i 3).isLt
  refine (shapeCast_apply _ h i (ix5 (⟨(i 0).val, h0⟩ : Fin 8) (⟨(i 1).val, h1⟩ : Fin 64)
    (⟨(i 2).val / 2, by omega⟩ : Fin 256) (⟨(i 2).val % 2, by omega⟩ : Fin 2) (⟨(i 3).val, h3⟩ : Fin 512)) ?_).trans ?_
  · rw [Shape.rowMajor_val_five, Shape.rowMajor_val_four]
    show ((((i 0).val * 64 + (i 1).val) * 256 + (i 2).val / 2) * 2 + (i 2).val % 2) * 512 + (i 3).val
      = (((i 0).val * 64 + (i 1).val) * 512 + (i 2).val) * 512 + (i 3).val
    omega
  · rcases Nat.mod_two_eq_zero_or_one (i 2).val with hp | hp
    · rw [sel_zero hp]
      exact concatenate_pair_apply_left (t := ImgWP) (s₁ := ImgWU) (s₂ := ImgWU) (3 : Fin 5) e1 e2 hc _ (rfl : ImgWU.rank = ImgWP.rank) (imgRowIdx i) (fun b => match b with
        | ⟨0, _⟩ => rfl
        | ⟨1, _⟩ => rfl
        | ⟨2, _⟩ => rfl
        | ⟨3, _⟩ => by show 0 = (i 2).val % 2; omega
        | ⟨4, _⟩ => rfl)
    · rw [sel_one hp]
      exact concatenate_pair_apply_right (t := ImgWP) (s₁ := ImgWU) (s₂ := ImgWU) (3 : Fin 5) e1 e2 hc _ (rfl : ImgWU.rank = ImgWP.rank) (rfl : ImgWU.rank = ImgWP.rank) (imgRowIdx i) (fun b hb => match b, hb with
        | ⟨0, _⟩, _ => rfl
        | ⟨1, _⟩, _ => rfl
        | ⟨2, _⟩, _ => rfl
        | ⟨3, _⟩, hb => absurd rfl hb
        | ⟨4, _⟩, _ => rfl) (by show 0 + 1 = (i 2).val % 2; omega)

end Cert.Haar

end
-- ==== Proof.Payload.lean ====
/-
  The kernel body's one stored value is `Cert.Haar.blockResult` of its four loaded blocks.

  The body computes the four combinations on the loaded blocks of 4 images, interleaves columns within each row parity,
  then rows, and stores the whole [4, 512, 512] block. Read at an index of that block: the row interleave picks by the
  row's parity, the column interleave by the column's, and the chosen combination is read at the same image, half the row
  and half the column. The reshapes of a loaded block to its own shape are the identity.
-/
import proofs.«124878_j67044439490878_2_alg».proof.Proof.Gen.KernelIdeal.Skeleton
import proofs.«124878_j67044439490878_2_alg».proof.Proof.Interleave

noncomputable section

namespace Cert.KernelIdeal.Payload

open Cert.KernelIdeal Cert.KernelIdeal.Gen Cert.Haar Idealize.ShloMosaic Idealize.ShloMosaic.ValueIdx

variable {F : FTy → Type} [FloatOps F]

/-- The body's stored value, index by index. -/
theorem pay_eq (x0 x1 x2 x3 : Vec F S4x256x256 .f32) : k0_pay1 x0 x1 x2 x3 = blockResult x0 x1 x2 x3 := by
  funext j
  unfold k0_pay1
  refine (blk_rows_apply _ _ _ _ j).trans ?_
  show sel ((j 1).val % 2) _ _
    = sel ((j 1).val % 2)
        (sel ((j 2).val % 2) (evenEven (x0 (blockPlace j)) (x1 (blockPlace j)) (x2 (blockPlace j)) (x3 (blockPlace j)))
          (evenOdd (x0 (blockPlace j)) (x1 (blockPlace j)) (x2 (blockPlace j)) (x3 (blockPlace j))))
        (sel ((j 2).val % 2) (oddEven (x0 (blockPlace j)) (x1 (blockPlace j)) (x2 (blockPlace j)) (x3 (blockPlace j)))
          (oddOdd (x0 (blockPlace j)) (x1 (blockPlace j)) (x2 (blockPlace j)) (x3 (blockPlace j))))
  refine congrArg₂ (sel ((j 1).val % 2)) ?_ ?_
  · refine (blk_unit_rows _ _ j).trans ?_
    refine (blk_cols_apply _ _ _ _ (blkRowPlace j)).trans ?_
    refine congrArg₂ (sel ((j 2).val % 2)) ?_ ?_
    · refine (blk_unit_cols _ _ (blkRowPlace j)).trans ?_
      simp only [shapeCast_self]
      rfl
    · refine (blk_unit_cols _ _ (blkRowPlace j)).trans ?_
      simp only [shapeCast_self]
      rfl
  · refine (blk_unit_rows _ _ j).trans ?_
    refine (blk_cols_apply _ _ _ _ (blkRowPlace j)).trans ?_
    refine congrArg₂ (sel ((j 2).val % 2)) ?_ ?_
    · refine (blk_unit_cols _ _ (blkRowPlace j)).trans ?_
      simp only [shapeCast_self]
      rfl
    · refine (blk_unit_cols _ _ (blkRowPlace j)).trans ?_
      simp only [shapeCast_self]
      rfl

end Cert.KernelIdeal.Payload

end
-- ==== Proof.KernelValue.lean ====
/-
  What the idealized kernel's result array holds after the run: `Cert.Haar.result` of the four argument arrays.

  The program merges the two leading axes of each argument (512 images along one axis), runs the kernel on a grid of 128
  points, and splits the leading axis of the kernel's output again. At point `t` every window's block is images
  `4 t … 4 t + 3`, whole in the other two axes (the index maps are `(t, 0, 0)` for all five windows: decided over the grid).
  The body stores `blockResult` of the four input blocks, which is block `t` of `flatResult` of the merged arrays; the 128
  blocks cover the 512 images (image `n` is in block `n / 4`), so the kernel's output array ends holding `flatResult` of the
  merged arguments, and splitting its leading axis gives `result` of the arguments.
-/
import proofs.«124878_j67044439490878_2_alg».proof.Proof.Gen.KernelIdeal.Frame
import proofs.«124878_j67044439490878_2_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.Haar

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-! ## The index maps over the grid -/

/-- Every window's block index at a point is `(q, 0, 0)` with one `q ≤ 127` for all five windows. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (1 : Fin 3) = 0 ∧ win0_4.index t (2 : Fin 3) = 0 ∧ win0_4.index t (0 : Fin 3) ≤ 127 :=
  (by decide +kernel : ∀ t : Fin grid0.N, _)

/-- Every block of the output array is some point's. -/
theorem idx_onto : ∀ q : Fin 128, ∃ t : Fin cfg0.N, win0_4.index t = ![q.val, 0, 0] :=
  (by decide +kernel : ∀ q : Fin 128, ∃ t : Fin grid0.N, win0_4.index t = ![q.val, 0, 0])

/-! ## What a point writes back -/

/-- What point `t` writes back is block `t` of `flatResult` of the merged argument arrays as the region finds them. -/
theorem flushed_eq (c : Dev nD) (t : Fin cfg0.N) :
    (dats m 0 c).flushed 4 t
      = ((cfg0.win 4).blk t).view.read (Elt F) (flatResult (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S4x256x256) hz]
  rw [Payload.pay_eq]
  obtain ⟨a0, a1, a2, b0, b1, b2, c0, c1, c2, d0, d1, d2, o1, o2, ole⟩ := idx_facts t
  funext j
  show blockResult (iblk m c 0 t) (iblk m c 1 t) (iblk m c 2 t) (iblk m c 3 t) j
    = flatResult (V m c main_v0) (V m c main_v1) (V m c main_v2) (V m c main_v3) (((cfg0.win 4).blk t).view.emb j)
  have hj0 : (j 0).val < 4 := (j 0).isLt
  have hj1 : (j 1).val < 512 := (j 1).isLt
  have hj2 : (j 2).val < 512 := (j 2).isLt
  refine block_of_flat (V m c main_v0) (V m c main_v1) (V m c main_v2) (V m c main_v3)
    (iblk m c 0 t) (iblk m c 1 t) (iblk m c 2 t) (iblk m c 3 t) (win0_4.index t (0 : Fin 3)) ?_ ?_ ?_ ?_ j
    (((cfg0.win 4).blk t).view.emb j) ?_ ?_ ?_
  · intro y k k0 k1 k2
    show V m c main_v0 (((cfg0.win 0).blk t).view.emb y) = V m c main_v0 k
    refine congrArg (V m c main_v0) (funext fun a => Fin.ext ?_)
    match a with
    | ⟨0, _⟩ => show win0_0.index t (0 : Fin 3) * 4 + 1 * (y 0).val = (k 0).val; omega
    | ⟨1, _⟩ => show win0_0.index t (1 : Fin 3) * 256 + 1 * (y 1).val = (k 1).val; omega
    | ⟨2, _⟩ => show win0_0.index t (2 : Fin 3) * 256 + 1 * (y 2).val = (k 2).val; omega
  · intro y k k0 k1 k2
    show V m c main_v1 (((cfg0.win 1).blk t).view.emb y) = V m c main_v1 k
    refine congrArg (V m c main_v1) (funext fun a => Fin.ext ?_)
    match a with
    | ⟨0, _⟩ => show win0_1.index t (0 : Fin 3) * 4 + 1 * (y 0).val = (k 0).val; omega
    | ⟨1, _⟩ => show win0_1.index t (1 : Fin 3) * 256 + 1 * (y 1).val = (k 1).val; omega
    | ⟨2, _⟩ => show win0_1.index t (2 : Fin 3) * 256 + 1 * (y 2).val = (k 2).val; omega
  · intro y k k0 k1 k2
    show V m c main_v2 (((cfg0.win 2).blk t).view.emb y) = V m c main_v2 k
    refine congrArg (V m c main_v2) (funext fun a => Fin.ext ?_)
    match a with
    | ⟨0, _⟩ => show win0_2.index t (0 : Fin 3) * 4 + 1 * (y 0).val = (k 0).val; omega
    | ⟨1, _⟩ => show win0_2.index t (1 : Fin 3) * 256 + 1 * (y 1).val = (k 1).val; omega
    | ⟨2, _⟩ => show win0_2.index t (2 : Fin 3) * 256 + 1 * (y 2).val = (k 2).val; omega
  · intro y k k0 k1 k2
    show V m c main_v3 (((cfg0.win 3).blk t).view.emb y) = V m c main_v3 k
    refine congrArg (V m c main_v3) (funext fun a => Fin.ext ?_)
    match a with
    | ⟨0, _⟩ => show win0_3.index t (0 : Fin 3) * 4 + 1 * (y 0).val = (k 0).val; omega
    | ⟨1, _⟩ => show win0_3.index t (1 : Fin 3) * 256 + 1 * (y 1).val = (k 1).val; omega
    | ⟨2, _⟩ => show win0_3.index t (2 : Fin 3) * 256 + 1 * (y 2).val = (k 2).val; omega
  · show win0_4.index t (0 : Fin 3) * 4 + 1 * (j 0).val = win0_4.index t (0 : Fin 3) * 4 + (j 0).val; omega
  · show win0_4.index t (1 : Fin 3) * 512 + 1 * (j 1).val = (j 1).val; omega
  · show win0_4.index t (2 : Fin 3) * 512 + 1 * (j 2).val = (j 2).val; omega

/-! ## The cover -/

/-- An index of the output array is in point `t`'s block iff each coordinate is in the block's range on its axis. -/
theorem mem_blk (t : Fin cfg0.N) (i : S512x512x512.Idx) :
    i ∈ ((cfg0.win 4).blk t).view.set ↔ ∀ a : Fin 3, win0_4.index t a * S4x512x512.size a ≤ (i a).val
      ∧ (i a).val < win0_4.index t a * S4x512x512.size a + S4x512x512.size a := by
  show i ∈ ((View.whole main_v4).slice (win0_4.rect t)).set ↔ _
  rw [View.set_slice_whole, Rect.mem_set_unit]
  exact Iff.rfl

/-- Image `n` is in the block of the point whose block index is `n / 4`: every index is written back. -/
theorem cover (i : S512x512x512.Idx) :
    ∃ t : Fin cfg0.N, (cfg0.win 4).flush t = true ∧ i ∈ ((cfg0.win 4).blk t).view.set := by
  have hi0 : (i 0).val < 512 := (i 0).isLt
  have hi1 : (i 1).val < 512 := (i 1).isLt
  have hi2 : (i 2).val < 512 := (i 2).isLt
  obtain ⟨t, ht⟩ := idx_onto ⟨(i 0).val / 4, by omega⟩
  have q0 : win0_4.index t (0 : Fin 3) = (i 0).val / 4 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 4 ≤ (i 0).val ∧ (i 0).val < win0_4.index t (0 : Fin 3) * 4 + 4
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 512 ≤ (i 2).val ∧ (i 2).val < win0_4.index t (2 : Fin 3) * 512 + 512
    omega

/-- The kernel's output array after the run: `flatResult` of the merged argument arrays as the region finds them. -/
theorem final (c : Dev nD) :
    (dats m 0 c).arrAt 4 cfg0.N = flatResult (V m c main_v0) (V m c main_v1) (V m c main_v2) (V m c main_v3) :=
  (dats m 0 c).arrAt_eq_of_cover 4 _ (fun t _ => flushed_eq m c t) cover

/-! ## The host lines before the region: each argument with its leading axes merged -/

theorem V_main_v0 (c : Dev nD) : (V m c main_v0 : S512x256x256.Idx → Elt F .f32)
    = shapeCast S512x256x256 (m ((c : Thread nD τ).loc main_arg0)) shapeCasts_S8x64x256x256_S512x256x256 := by
  show StableHlo.after hostOps0 (fun b => m (c, b)) (Proc.devRef .tc main_v0) = _
  after_results
  rfl
theorem V_main_v1 (c : Dev nD) : (V m c main_v1 : S512x256x256.Idx → Elt F .f32)
    = shapeCast S512x256x256 (m ((c : Thread nD τ).loc main_arg1)) shapeCasts_S8x64x256x256_S512x256x256 := by
  show StableHlo.after hostOps0 (fun b => m (c, b)) (Proc.devRef .tc main_v1) = _
  after_results
  rfl
theorem V_main_v2 (c : Dev nD) : (V m c main_v2 : S512x256x256.Idx → Elt F .f32)
    = shapeCast S512x256x256 (m ((c : Thread nD τ).loc main_arg2)) shapeCasts_S8x64x256x256_S512x256x256 := by
  show StableHlo.after hostOps0 (fun b => m (c, b)) (Proc.devRef .tc main_v2) = _
  after_results
  rfl
theorem V_main_v3 (c : Dev nD) : (V m c main_v3 : S512x256x256.Idx → Elt F .f32)
    = shapeCast S512x256x256 (m ((c : Thread nD τ).loc main_arg3)) shapeCasts_S8x64x256x256_S512x256x256 := by
  show StableHlo.after hostOps0 (fun b => m (c, b)) (Proc.devRef .tc main_v3) = _
  after_results
  rfl

/-! ## The host line after the region: the output's leading axis split -/

/-- The result buffer after the lines that follow the region is the kernel's output array with its leading axis split. -/
theorem tail_eq (c : Dev nD) :
    Pipeline.afterTail₀ cfgs (dats m) 0 (V0 m) [hostOps1] c main_v5
      = shapeCast S8x64x512x512 ((dats m 0 c).arrAt 4 cfg0.N) shapeCasts_S512x512x512_S8x64x512x512 := by
  unfold Pipeline.afterTail₀
  show StableHlo.after hostOps1 _ (Proc.devRef .tc main_v5) = _
  after_results
  exact congrArg (fun x => shapeCast S8x64x512x512 x shapeCasts_S512x512x512_S8x64x512x512)
    (Pipeline.withArrays_arr spec0 launch0.win.arr_inj c _ _ 4)

/-- The result buffer after the whole program: the inverse Haar step of the four arguments. -/
theorem value_eq (c : Dev nD) :
    Pipeline.afterTail₀ cfgs (dats m) 0 (V0 m) [hostOps1] c main_v5
      = result (m ((c.tc : Thread nD τ).loc main_arg0)) (m ((c.tc : Thread nD τ).loc main_arg1))
          (m ((c.tc : Thread nD τ).loc main_arg2)) (m ((c.tc : Thread nD τ).loc main_arg3)) := by
  rw [tail_eq, final, V_main_v0, V_main_v1, V_main_v2, V_main_v3]
  exact result_of_flat _ _ _ _ _ _

/-! ## The run, read -/

/-- Every weakly fair execution terminates with the result buffer at `result` of the arguments and the arguments
    unchanged: the generated frame run, its post read at the result buffer and at the four arguments. -/
theorem run : θ_run defs (onTc (τ := τ) (main (F := F))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRun.lean ====
/-
  The reference's run, read at its result: `Cert.Haar.result` of its four arguments.

  The reference is a straight line of 36 host operations. Its buffers after the line are the fold of the operations'
  results over the launch contents; the fold is evaluated here in five stretches, each short: the four combinations
  (stretch A computes even row / even column into `main_v4`, B odd row / even column into `main_v9`, C even row / odd
  column into `main_v14`, D odd row / odd column into `main_v19`, six operations each, reading only the arguments), then the
  twelve layout operations (stretch L) that interleave columns and rows into `main_v31`. A stretch leaves alone every
  buffer it does not write, so each combination reaches stretch L as computed, from the arguments as launched.

  The combinations are elementwise: at an index they are `evenEven` … `oddOdd` of the arguments at that index (the
  broadcast scalar is the literal one half everywhere). The layout stretch at an output index picks by the row's parity
  then by the column's, and reads the chosen combination at half the row and half the column: the new unit axes are read
  at 0 (`img_unit_cols`, `img_unit_rows`), the interleaves by `img_cols_apply`, `img_rows_apply`.
-/
import proofs.«124878_j67044439490878_2_alg».proof.Proof.Gen.ReferenceIdeal
import proofs.«124878_j67044439490878_2_alg».proof.Proof.Interleave
import Idealize.ShloMosaic.Lib.StableHlo.Run
import Idealize.ShloMosaic.Lib.Pipeline.Value

noncomputable section

namespace Cert.ReferenceIdeal.RefRun

open Cert.ReferenceIdeal Cert.ReferenceIdeal.Gen Cert.Haar
open Idealize.ShloMosaic Idealize.ShloMosaic.TcCoe Idealize.ShloMosaic.ValueIdx Idealize.SL.Sem Idealize.ShloMosaic.StableHlo

variable {F : FTy → Type} [FloatOps F]

/-! ## The operations, in five stretches -/

/-- Even row, even column: `main_v4`. -/
abbrev opsA : List (HloOp τ sig (Elt F)) :=
  [ StableHlo.binary main_arg1 main_arg2 main_v0 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v0 main_arg3 main_v1 (subf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst (constant S_ .f32 0x3F000000#32),
    StableHlo.unary main_cst main_v2 (broadcastInDim S8x64x256x256 ![] bcast_S_S8x64x256x256 : (⟨S_, .f32⟩ : BufTy).Contents (Elt F) → (⟨S8x64x256x256, .f32⟩ : BufTy).Contents (Elt F)),
    StableHlo.binary main_v1 main_v2 main_v3 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v3 main_v4 (subf : (⟨S8x64x256x256, .f32⟩ : BufTy).Contents (Elt F) → (⟨S8x64x256x256, .f32⟩ : BufTy).Contents (Elt F) → (⟨S8x64x256x256, .f32⟩ : BufTy).Contents (Elt F)) ]
/-- Odd row, even column: `main_v9`. -/
abbrev opsB : List (HloOp τ sig (Elt F)) :=
  [ StableHlo.binary main_arg1 main_arg2 main_v5 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_v5 main_arg3 main_v6 (addf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_0 (constant S_ .f32 0x3F000000#32),
    StableHlo.unary main_cst_0 main_v7 (broadcastInDim S8x64x256x256 ![] bcast_S_S8x64x256x256 : (⟨S_, .f32⟩ : BufTy).Contents (Elt F) → (⟨S8x64x256x256, .f32⟩ : BufTy).Contents (Elt F)),
    StableHlo.binary main_v6 main_v7 main_v8 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v8 main_v9 (subf : (⟨S8x64x256x256, .f32⟩ : BufTy).Contents (Elt F) → (⟨S8x64x256x256, .f32⟩ : BufTy).Contents (Elt F) → (⟨S8x64x256x256, .f32⟩ : BufTy).Contents (Elt F)) ]
/-- Even row, odd column: `main_v14`. -/
abbrev opsC : List (HloOp τ sig (Elt F)) :=
  [ StableHlo.binary main_arg1 main_arg2 main_v10 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_v10 main_arg3 main_v11 (subf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_1 (constant S_ .f32 0x3F000000#32),
    StableHlo.unary main_cst_1 main_v12 (broadcastInDim S8x64x256x256 ![] bcast_S_S8x64x256x256 : (⟨S_, .f32⟩ : BufTy).Contents (Elt F) → (⟨S8x64x256x256, .f32⟩ : BufTy).Contents (Elt F)),
    StableHlo.binary main_v11 main_v12 main_v13 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v13 main_v14 (addf : (⟨S8x64x256x256, .f32⟩ : BufTy).Contents (Elt F) → (⟨S8x64x256x256, .f32⟩ : BufTy).Contents (Elt F) → (⟨S8x64x256x256, .f32⟩ : BufTy).Contents (Elt F)) ]
/-- Odd row, odd column: `main_v19`. -/
abbrev opsD : List (HloOp τ sig (Elt F)) :=
  [ StableHlo.binary main_arg1 main_arg2 main_v15 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v15 main_arg3 main_v16 (addf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_2 (constant S_ .f32 0x3F000000#32),
    StableHlo.unary main_cst_2 main_v17 (broadcastInDim S8x64x256x256 ![] bcast_S_S8x64x256x256 : (⟨S_, .f32⟩ : BufTy).Contents (Elt F) → (⟨S8x64x256x256, .f32⟩ : BufTy).Contents (Elt F)),
    StableHlo.binary main_v16 main_v17 main_v18 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v18 main_v19 (addf : (⟨S8x64x256x256, .f32⟩ : BufTy).Contents (Elt F) → (⟨S8x64x256x256, .f32⟩ : BufTy).Contents (Elt F) → (⟨S8x64x256x256, .f32⟩ : BufTy).Contents (Elt F)) ]
/-- The layout: columns interleaved within each row parity, then rows. -/
abbrev opsL : List (HloOp τ sig (Elt F)) :=
  [ StableHlo.unary main_v4 main_v20 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.unary main_v14 main_v21 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.binary main_v20 main_v21 main_v22 ((fun a b => concatenate S8x64x256x256x2 4 [⟨S8x64x256x256x1, a⟩, ⟨S8x64x256x256x1, b⟩] concatenates_S8x64x256x256x1_S8x64x256x256x1_S8x64x256x256x2_d4) : (⟨S8x64x256x256x1, .f32⟩ : BufTy).Contents (Elt F) → (⟨S8x64x256x256x1, .f32⟩ : BufTy).Contents (Elt F) → (⟨S8x64x256x256x2, .f32⟩ : BufTy).Contents (Elt F)),
    StableHlo.reshape main_v22 main_v23 rfl shapeCasts_S8x64x256x256x2_S8x64x256x512,
    StableHlo.unary main_v9 main_v24 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.unary main_v19 main_v25 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.binary main_v24 main_v25 main_v26 ((fun a b => concatenate S8x64x256x256x2 4 [⟨S8x64x256x256x1, a⟩, ⟨S8x64x256x256x1, b⟩] concatenates_S8x64x256x256x1_S8x64x256x256x1_S8x64x256x256x2_d4) : (⟨S8x64x256x256x1, .f32⟩ : BufTy).Contents (Elt F) → (⟨S8x64x256x256x1, .f32⟩ : BufTy).Contents (Elt F) → (⟨S8x64x256x256x2, .f32⟩ : BufTy).Contents (Elt F)),
    StableHlo.reshape main_v26 main_v27 rfl shapeCasts_S8x64x256x256x2_S8x64x256x512,
    StableHlo.unary main_v23 main_v28 (broadcastInDim S8x64x256x1x512 ![0, 1, 2, 4] bcast_S8x64x256x512_S8x64x256x1x512_0_1_2_4 : (⟨S8x64x256x512, .f32⟩ : BufTy).Contents (Elt F) → (⟨S8x64x256x1x512, .f32⟩ : BufTy).Contents (Elt F)),
    StableHlo.unary main_v27 main_v29 (broadcastInDim S8x64x256x1x512 ![0, 1, 2, 4] bcast_S8x64x256x512_S8x64x256x1x512_0_1_2_4 : (⟨S8x64x256x512, .f32⟩ : BufTy).Contents (Elt F) → (⟨S8x64x256x1x512, .f32⟩ : BufTy).Contents (Elt F)),
    StableHlo.binary main_v28 main_v29 main_v30 ((fun a b => concatenate S8x64x256x2x512 3 [⟨S8x64x256x1x512, a⟩, ⟨S8x64x256x1x512, b⟩] concatenates_S8x64x256x1x512_S8x64x256x1x512_S8x64x256x2x512_d3) : (⟨S8x64x256x1x512, .f32⟩ : BufTy).Contents (Elt F) → (⟨S8x64x256x1x512, .f32⟩ : BufTy).Contents (Elt F) → (⟨S8x64x256x2x512, .f32⟩ : BufTy).Contents (Elt F)),
    StableHlo.reshape main_v30 main_v31 rfl shapeCasts_S8x64x256x2x512_S8x64x512x512 ]

/-- @main's 36 operations, in order. -/
abbrev ops : List (HloOp τ sig (Elt F)) :=
  [ StableHlo.binary main_arg1 main_arg2 main_v0 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v0 main_arg3 main_v1 (subf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst (constant S_ .f32 0x3F000000#32),
    StableHlo.unary main_cst main_v2 (broadcastInDim S8x64x256x256 ![] bcast_S_S8x64x256x256 : (⟨S_, .f32⟩ : BufTy).Contents (Elt F) → (⟨S8x64x256x256, .f32⟩ : BufTy).Contents (Elt F)),
    StableHlo.binary main_v1 main_v2 main_v3 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v3 main_v4 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_arg1 main_arg2 main_v5 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_v5 main_arg3 main_v6 (addf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_0 (constant S_ .f32 0x3F000000#32),
    StableHlo.unary main_cst_0 main_v7 (broadcastInDim S8x64x256x256 ![] bcast_S_S8x64x256x256 : (⟨S_, .f32⟩ : BufTy).Contents (Elt F) → (⟨S8x64x256x256, .f32⟩ : BufTy).Contents (Elt F)),
    StableHlo.binary main_v6 main_v7 main_v8 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v8 main_v9 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_arg1 main_arg2 main_v10 (subf : (⟨S8x64x256x256, .f32⟩ : BufTy).Contents (Elt F) → (⟨S8x64x256x256, .f32⟩ : BufTy).Contents (Elt F) → (⟨S8x64x256x256, .f32⟩ : BufTy).Contents (Elt F)),
    StableHlo.binary main_v10 main_arg3 main_v11 (subf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_1 (constant S_ .f32 0x3F000000#32),
    StableHlo.unary main_cst_1 main_v12 (broadcastInDim S8x64x256x256 ![] bcast_S_S8x64x256x256 : (⟨S_, .f32⟩ : BufTy).Contents (Elt F) → (⟨S8x64x256x256, .f32⟩ : BufTy).Contents (Elt F)),
    StableHlo.binary main_v11 main_v12 main_v13 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v13 main_v14 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_arg1 main_arg2 main_v15 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v15 main_arg3 main_v16 (addf : (⟨S8x64x256x256, .f32⟩ : BufTy).Contents (Elt F) → (⟨S8x64x256x256, .f32⟩ : BufTy).Contents (Elt F) → (⟨S8x64x256x256, .f32⟩ : BufTy).Contents (Elt F)),
    StableHlo.nullary main_cst_2 (constant S_ .f32 0x3F000000#32),
    StableHlo.unary main_cst_2 main_v17 (broadcastInDim S8x64x256x256 ![] bcast_S_S8x64x256x256 : (⟨S_, .f32⟩ : BufTy).Contents (Elt F) → (⟨S8x64x256x256, .f32⟩ : BufTy).Contents (Elt F)),
    StableHlo.binary main_v16 main_v17 main_v18 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_arg0 main_v18 main_v19 (addf : (⟨S8x64x256x256, .f32⟩ : BufTy).Contents (Elt F) → (⟨S8x64x256x256, .f32⟩ : BufTy).Contents (Elt F) → (⟨S8x64x256x256, .f32⟩ : BufTy).Contents (Elt F)),
    StableHlo.unary main_v4 main_v20 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.unary main_v14 main_v21 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.binary main_v20 main_v21 main_v22 ((fun a b => concatenate S8x64x256x256x2 4 [⟨S8x64x256x256x1, a⟩, ⟨S8x64x256x256x1, b⟩] concatenates_S8x64x256x256x1_S8x64x256x256x1_S8x64x256x256x2_d4) : (⟨S8x64x256x256x1, .f32⟩ : BufTy).Contents (Elt F) → (⟨S8x64x256x256x1, .f32⟩ : BufTy).Contents (Elt F) → (⟨S8x64x256x256x2, .f32⟩ : BufTy).Contents (Elt F)),
    StableHlo.reshape main_v22 main_v23 rfl shapeCasts_S8x64x256x256x2_S8x64x256x512,
    StableHlo.unary main_v9 main_v24 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.unary main_v19 main_v25 (broadcastInDim S8x64x256x256x1 ![0, 1, 2, 3] bcast_S8x64x256x256_S8x64x256x256x1_0_1_2_3 : (⟨S8x64x256x256, .f32⟩ : BufTy).Contents (Elt F) → (⟨S8x64x256x256x1, .f32⟩ : BufTy).Contents (Elt F)),
    StableHlo.binary main_v24 main_v25 main_v26 ((fun a b => concatenate S8x64x256x256x2 4 [⟨S8x64x256x256x1, a⟩, ⟨S8x64x256x256x1, b⟩] concatenates_S8x64x256x256x1_S8x64x256x256x1_S8x64x256x256x2_d4) : (⟨S8x64x256x256x1, .f32⟩ : BufTy).Contents (Elt F) → (⟨S8x64x256x256x1, .f32⟩ : BufTy).Contents (Elt F) → (⟨S8x64x256x256x2, .f32⟩ : BufTy).Contents (Elt F)),
    StableHlo.reshape main_v26 main_v27 rfl shapeCasts_S8x64x256x256x2_S8x64x256x512,
    StableHlo.unary main_v23 main_v28 (broadcastInDim S8x64x256x1x512 ![0, 1, 2, 4] bcast_S8x64x256x512_S8x64x256x1x512_0_1_2_4 : (⟨S8x64x256x512, .f32⟩ : BufTy).Contents (Elt F) → (⟨S8x64x256x1x512, .f32⟩ : BufTy).Contents (Elt F)),
    StableHlo.unary main_v27 main_v29 (broadcastInDim S8x64x256x1x512 ![0, 1, 2, 4] bcast_S8x64x256x512_S8x64x256x1x512_0_1_2_4 : (⟨S8x64x256x512, .f32⟩ : BufTy).Contents (Elt F) → (⟨S8x64x256x1x512, .f32⟩ : BufTy).Contents (Elt F)),
    StableHlo.binary main_v28 main_v29 main_v30 ((fun a b => concatenate S8x64x256x2x512 3 [⟨S8x64x256x1x512, a⟩, ⟨S8x64x256x1x512, b⟩] concatenates_S8x64x256x1x512_S8x64x256x1x512_S8x64x256x2x512_d3) : (⟨S8x64x256x1x512, .f32⟩ : BufTy).Contents (Elt F) → (⟨S8x64x256x1x512, .f32⟩ : BufTy).Contents (Elt F) → (⟨S8x64x256x2x512, .f32⟩ : BufTy).Contents (Elt F)),
    StableHlo.reshape main_v30 main_v31 rfl shapeCasts_S8x64x256x2x512_S8x64x512x512 ]

theorem ops_split : (ops : List (HloOp τ sig (Elt F))) = opsA ++ (opsB ++ (opsC ++ (opsD ++ opsL))) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., reshape_bufs_sub .., unary_bufs_sub .., unary_bufs_sub .., binary_bufs_sub .., reshape_bufs_sub .., unary_bufs_sub .., unary_bufs_sub .., binary_bufs_sub .., reshape_bufs_sub ..⟩

/-- The buffers after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each stretch leaves alone -/

theorem keepA_arg0 (V : Valuation τ sig (Elt F)) : after opsA V (Proc.devRef .tc main_arg0) = V (Proc.devRef .tc main_arg0) := by
  after_results
theorem keepA_arg1 (V : Valuation τ sig (Elt F)) : after opsA V (Proc.devRef .tc main_arg1) = V (Proc.devRef .tc main_arg1) := by
  after_results
theorem keepA_arg2 (V : Valuation τ sig (Elt F)) : after opsA V (Proc.devRef .tc main_arg2) = V (Proc.devRef .tc main_arg2) := by
  after_results
theorem keepA_arg3 (V : Valuation τ sig (Elt F)) : after opsA V (Proc.devRef .tc main_arg3) = V (Proc.devRef .tc main_arg3) := by
  after_results

theorem keepB_v4 (V : Valuation τ sig (Elt F)) : after opsB V (Proc.devRef .tc main_v4) = V (Proc.devRef .tc main_v4) := by
  after_results
theorem keepB_arg0 (V : Valuation τ sig (Elt F)) : after opsB V (Proc.devRef .tc main_arg0) = V (Proc.devRef .tc main_arg0) := by
  after_results
theorem keepB_arg1 (V : Valuation τ sig (Elt F)) : after opsB V (Proc.devRef .tc main_arg1) = V (Proc.devRef .tc main_arg1) := by
  after_results
theorem keepB_arg2 (V : Valuation τ sig (Elt F)) : after opsB V (Proc.devRef .tc main_arg2) = V (Proc.devRef .tc main_arg2) := by
  after_results
theorem keepB_arg3 (V : Valuation τ sig (Elt F)) : after opsB V (Proc.devRef .tc main_arg3) = V (Proc.devRef .tc main_arg3) := by
  after_results

theorem keepC_v4 (V : Valuation τ sig (Elt F)) : after opsC V (Proc.devRef .tc main_v4) = V (Proc.devRef .tc main_v4) := by
  after_results
theorem keepC_v9 (V : Valuation τ sig (Elt F)) : after opsC V (Proc.devRef .tc main_v9) = V (Proc.devRef .tc main_v9) := by
  after_results
theorem keepC_arg0 (V : Valuation τ sig (Elt F)) : after opsC V (Proc.devRef .tc main_arg0) = V (Proc.devRef .tc main_arg0) := by
  after_results
theorem keepC_arg1 (V : Valuation τ sig (Elt F)) : after opsC V (Proc.devRef .tc main_arg1) = V (Proc.devRef .tc main_arg1) := by
  after_results
theorem keepC_arg2 (V : Valuation τ sig (Elt F)) : after opsC V (Proc.devRef .tc main_arg2) = V (Proc.devRef .tc main_arg2) := by
  after_results
theorem keepC_arg3 (V : Valuation τ sig (Elt F)) : after opsC V (Proc.devRef .tc main_arg3) = V (Proc.devRef .tc main_arg3) := by
  after_results

theorem keepD_v4 (V : Valuation τ sig (Elt F)) : after opsD V (Proc.devRef .tc main_v4) = V (Proc.devRef .tc main_v4) := by
  after_results
theorem keepD_v9 (V : Valuation τ sig (Elt F)) : after opsD V (Proc.devRef .tc main_v9) = V (Proc.devRef .tc main_v9) := by
  after_results
theorem keepD_v14 (V : Valuation τ sig (Elt F)) : after opsD V (Proc.devRef .tc main_v14) = V (Proc.devRef .tc main_v14) := by
  after_results
theorem keepD_arg0 (V : Valuation τ sig (Elt F)) : after opsD V (Proc.devRef .tc main_arg0) = V (Proc.devRef .tc main_arg0) := by
  after_results
theorem keepD_arg1 (V : Valuation τ sig (Elt F)) : after opsD V (Proc.devRef .tc main_arg1) = V (Proc.devRef .tc main_arg1) := by
  after_results
theorem keepD_arg2 (V : Valuation τ sig (Elt F)) : after opsD V (Proc.devRef .tc main_arg2) = V (Proc.devRef .tc main_arg2) := by
  after_results
theorem keepD_arg3 (V : Valuation τ sig (Elt F)) : after opsD V (Proc.devRef .tc main_arg3) = V (Proc.devRef .tc main_arg3) := by
  after_results

theorem keepL_arg0 (V : Valuation τ sig (Elt F)) : after opsL V (Proc.devRef .tc main_arg0) = V (Proc.devRef .tc main_arg0) := by
  after_results
theorem keepL_arg1 (V : Valuation τ sig (Elt F)) : after opsL V (Proc.devRef .tc main_arg1) = V (Proc.devRef .tc main_arg1) := by
  after_results
theorem keepL_arg2 (V : Valuation τ sig (Elt F)) : after opsL V (Proc.devRef .tc main_arg2) = V (Proc.devRef .tc main_arg2) := by
  after_results
theorem keepL_arg3 (V : Valuation τ sig (Elt F)) : after opsL V (Proc.devRef .tc main_arg3) = V (Proc.devRef .tc main_arg3) := by
  after_results

/-! ## The four combinations -/

/-- The broadcast scalar is the literal one half at every index. -/
theorem half_at (k : Img.Idx) :
    broadcastInDim S8x64x256x256 ![] bcast_S_S8x64x256x256 (constant (F := F) S_ .f32 0x3F000000#32) k = half :=
  (broadcastInDim_apply _ bcast_S_S8x64x256x256 _ k (fun a => a.elim0) (fun a => a.elim0)).trans rfl

/-- The even-row, even-column combination of the four arguments, element by element. -/
theorem A_v4 (V : Valuation τ sig (Elt F)) :
    after opsA V (Proc.devRef .tc main_v4) = fun k => evenEven ((V (Proc.devRef .tc main_arg0) : Img.Idx → F .f32) k) ((V (Proc.devRef .tc main_arg1) : Img.Idx → F .f32) k)
      ((V (Proc.devRef .tc main_arg2) : Img.Idx → F .f32) k) ((V (Proc.devRef .tc main_arg3) : Img.Idx → F .f32) k) := by
  after_results
  funext k
  show FloatOps.subf ((V (Proc.devRef .tc main_arg0) : Img.Idx → F .f32) k)
      (FloatOps.mulf (FloatOps.subf (FloatOps.addf ((V (Proc.devRef .tc main_arg1) : Img.Idx → F .f32) k) ((V (Proc.devRef .tc main_arg2) : Img.Idx → F .f32) k)) ((V (Proc.devRef .tc main_arg3) : Img.Idx → F .f32) k))
        (broadcastInDim S8x64x256x256 ![] bcast_S_S8x64x256x256 (constant (F := F) S_ .f32 0x3F000000#32) k)) = _
  rw [half_at]
  rfl

/-- The odd-row, even-column combination of the four arguments, element by element. -/
theorem B_v9 (V : Valuation τ sig (Elt F)) :
    after opsB V (Proc.devRef .tc main_v9) = fun k => oddEven ((V (Proc.devRef .tc main_arg0) : Img.Idx → F .f32) k) ((V (Proc.devRef .tc main_arg1) : Img.Idx → F .f32) k)
      ((V (Proc.devRef .tc main_arg2) : Img.Idx → F .f32) k) ((V (Proc.devRef .tc main_arg3) : Img.Idx → F .f32) k) := by
  after_results
  funext k
  show FloatOps.subf ((V (Proc.devRef .tc main_arg0) : Img.Idx → F .f32) k)
      (FloatOps.mulf (FloatOps.addf (FloatOps.subf ((V (Proc.devRef .tc main_arg1) : Img.Idx → F .f32) k) ((V (Proc.devRef .tc main_arg2) : Img.Idx → F .f32) k)) ((V (Proc.devRef .tc main_arg3) : Img.Idx → F .f32) k))
        (broadcastInDim S8x64x256x256 ![] bcast_S_S8x64x256x256 (constant (F := F) S_ .f32 0x3F000000#32) k)) = _
  rw [half_at]
  rfl

/-- The even-row, odd-column combination of the four arguments, element by element. -/
theorem C_v14 (V : Valuation τ sig (Elt F)) :
    after opsC V (Proc.devRef .tc main_v14) = fun k => evenOdd ((V (Proc.devRef .tc main_arg0) : Img.Idx → F .f32) k) ((V (Proc.devRef .tc main_arg1) : Img.Idx → F .f32) k)
      ((V (Proc.devRef .tc main_arg2) : Img.Idx → F .f32) k) ((V (Proc.devRef .tc main_arg3) : Img.Idx → F .f32) k) := by
  after_results
  funext k
  show FloatOps.addf ((V (Proc.devRef .tc main_arg0) : Img.Idx → F .f32) k)
      (FloatOps.mulf (FloatOps.subf (FloatOps.subf ((V (Proc.devRef .tc main_arg1) : Img.Idx → F .f32) k) ((V (Proc.devRef .tc main_arg2) : Img.Idx → F .f32) k)) ((V (Proc.devRef .tc main_arg3) : Img.Idx → F .f32) k))
        (broadcastInDim S8x64x256x256 ![] bcast_S_S8x64x256x256 (constant (F := F) S_ .f32 0x3F000000#32) k)) = _
  rw [half_at]
  rfl

/-- The odd-row, odd-column combination of the four arguments, element by element. -/
theorem D_v19 (V : Valuation τ sig (Elt F)) :
    after opsD V (Proc.devRef .tc main_v19) = fun k => oddOdd ((V (Proc.devRef .tc main_arg0) : Img.Idx → F .f32) k) ((V (Proc.devRef .tc main_arg1) : Img.Idx → F .f32) k)
      ((V (Proc.devRef .tc main_arg2) : Img.Idx → F .f32) k) ((V (Proc.devRef .tc main_arg3) : Img.Idx → F .f32) k) := by
  after_results
  funext k
  show FloatOps.addf ((V (Proc.devRef .tc main_arg0) : Img.Idx → F .f32) k)
      (FloatOps.mulf (FloatOps.addf (FloatOps.addf ((V (Proc.devRef .tc main_arg1) : Img.Idx → F .f32) k) ((V (Proc.devRef .tc main_arg2) : Img.Idx → F .f32) k)) ((V (Proc.devRef .tc main_arg3) : Img.Idx → F .f32) k))
        (broadcastInDim S8x64x256x256 ![] bcast_S_S8x64x256x256 (constant (F := F) S_ .f32 0x3F000000#32) k)) = _
  rw [half_at]
  rfl

/-! ## The layout -/

/-- The input place of the column interleave: same image and row, pair `C / 2`. -/
def imgColPlace (j : ImgW.Idx) : Img.Idx :=
  ix4 (⟨(j 0).val, (j 0).isLt⟩ : Fin 8) (⟨(j 1).val, (j 1).isLt⟩ : Fin 64) (⟨(j 2).val, (j 2).isLt⟩ : Fin 256)
    (⟨(j 3).val / 2, by have h : (j 3).val < 512 := (j 3).isLt; omega⟩ : Fin 256)

/-- The input place of the row interleave: same image, pair `R / 2`, same column. -/
def imgRowPlace (i : ImgOut.Idx) : ImgW.Idx :=
  ix4 (⟨(i 0).val, (i 0).isLt⟩ : Fin 8) (⟨(i 1).val, (i 1).isLt⟩ : Fin 64)
    (⟨(i 2).val / 2, by have h : (i 2).val < 512 := (i 2).isLt; omega⟩ : Fin 256) (⟨(i 3).val, (i 3).isLt⟩ : Fin 512)

/-- A trailing unit axis added by a broadcast: at 0 on that axis it reads the array at the other coordinates. -/
theorem img_unit_cols {α : Type} (u : Img.Idx → α) (hb : Img.BroadcastsInDim ImgU (![0, 1, 2, 3] : Fin 4 → Fin 5)) (j : ImgW.Idx) :
    broadcastInDim ImgU (![0, 1, 2, 3] : Fin 4 → Fin 5) hb u (imgColIdx j) = u (imgColPlace j) := by
  refine broadcastInDim_apply _ hb u (imgColIdx j) (imgColPlace j) (fun a => ?_)
  match a with
  | ⟨0, _⟩ => show (j 0).val = if (8 : Nat) = 1 then 0 else (j 0).val; rw [if_neg (by decide)]
  | ⟨1, _⟩ => show (j 1).val = if (64 : Nat) = 1 then 0 else (j 1).val; rw [if_neg (by decide)]
  | ⟨2, _⟩ => show (j 2).val = if (256 : Nat) = 1 then 0 else (j 2).val; rw [if_neg (by decide)]
  | ⟨3, _⟩ => show (j 3).val / 2 = if (256 : Nat) = 1 then 0 else (j 3).val / 2; rw [if_neg (by decide)]

/-- A unit axis added before the last one by a broadcast: at 0 on that axis it reads the array at the other coordinates. -/
theorem img_unit_rows {α : Type} (w : ImgW.Idx → α) (hb : ImgW.BroadcastsInDim ImgWU (![0, 1, 2, 4] : Fin 4 → Fin 5)) (i : ImgOut.Idx) :
    broadcastInDim ImgWU (![0, 1, 2, 4] : Fin 4 → Fin 5) hb w (imgRowIdx i) = w (imgRowPlace i) := by
  refine broadcastInDim_apply _ hb w (imgRowIdx i) (imgRowPlace i) (fun a => ?_)
  match a with
  | ⟨0, _⟩ => show (i 0).val = if (8 : Nat) = 1 then 0 else (i 0).val; rw [if_neg (by decide)]
  | ⟨1, _⟩ => show (i 1).val = if (64 : Nat) = 1 then 0 else (i 1).val; rw [if_neg (by decide)]
  | ⟨2, _⟩ => show (i 2).val / 2 = if (256 : Nat) = 1 then 0 else (i 2).val / 2; rw [if_neg (by decide)]
  | ⟨3, _⟩ => show (i 3).val = if (512 : Nat) = 1 then 0 else (i 3).val; rw [if_neg (by decide)]

/-- Four arrays interleaved: rows by parity, then columns by parity, each read at half the row and half the column. -/
def mix (e00 e01 e10 e11 : Img.Idx → F .f32) : ImgOut.Idx → F .f32 := fun i =>
  sel ((i 2).val % 2) (sel ((i 3).val % 2) (e00 (place i)) (e01 (place i))) (sel ((i 3).val % 2) (e10 (place i)) (e11 (place i)))

/-- The layout stretch interleaves the four combinations it finds. -/
theorem L_v31 (V : Valuation τ sig (Elt F)) :
    after opsL V (Proc.devRef .tc main_v31)
      = mix (V (Proc.devRef .tc main_v4) : Img.Idx → F .f32) (V (Proc.devRef .tc main_v14) : Img.Idx → F .f32)
          (V (Proc.devRef .tc main_v9) : Img.Idx → F .f32) (V (Proc.devRef .tc main_v19) : Img.Idx → F .f32) := by
  after_results
  funext i
  refine (img_rows_apply _ _ _ _ i).trans ?_
  refine congrArg₂ (sel ((i 2).val % 2)) ?_ ?_
  · refine (img_unit_rows _ _ i).trans ?_
    refine (img_cols_apply _ _ _ _ (imgRowPlace i)).trans ?_
    exact congrArg₂ (sel ((i 3).val % 2)) (img_unit_cols _ _ (imgRowPlace i)) (img_unit_cols _ _ (imgRowPlace i))
  · refine (img_unit_rows _ _ i).trans ?_
    refine (img_cols_apply _ _ _ _ (imgRowPlace i)).trans ?_
    exact congrArg₂ (sel ((i 3).val % 2)) (img_unit_cols _ _ (imgRowPlace i)) (img_unit_cols _ _ (imgRowPlace i))

/-! ## The whole line -/

theorem keep_arg0 (V : Valuation τ sig (Elt F)) : after ops V (Proc.devRef .tc main_arg0) = V (Proc.devRef .tc main_arg0) := by
  rw [ops_split, after_append, after_append, after_append, after_append, keepL_arg0, keepD_arg0, keepC_arg0, keepB_arg0, keepA_arg0]
theorem keep_arg1 (V : Valuation τ sig (Elt F)) : after ops V (Proc.devRef .tc main_arg1) = V (Proc.devRef .tc main_arg1) := by
  rw [ops_split, after_append, after_append, after_append, after_append, keepL_arg1, keepD_arg1, keepC_arg1, keepB_arg1, keepA_arg1]
theorem keep_arg2 (V : Valuation τ sig (Elt F)) : after ops V (Proc.devRef .tc main_arg2) = V (Proc.devRef .tc main_arg2) := by
  rw [ops_split, after_append, after_append, after_append, after_append, keepL_arg2, keepD_arg2, keepC_arg2, keepB_arg2, keepA_arg2]
theorem keep_arg3 (V : Valuation τ sig (Elt F)) : after ops V (Proc.devRef .tc main_arg3) = V (Proc.devRef .tc main_arg3) := by
  rw [ops_split, after_append, after_append, after_append, after_append, keepL_arg3, keepD_arg3, keepC_arg3, keepB_arg3, keepA_arg3]

/-- The result buffer after the whole line: the inverse Haar step of the arguments as launched. -/
theorem value (V : Valuation τ sig (Elt F)) :
    after ops V (Proc.devRef .tc main_v31)
      = result (V (Proc.devRef .tc main_arg0) : Img.Idx → F .f32) (V (Proc.devRef .tc main_arg1) : Img.Idx → F .f32)
          (V (Proc.devRef .tc main_arg2) : Img.Idx → F .f32) (V (Proc.devRef .tc main_arg3) : Img.Idx → F .f32) := by
  rw [ops_split, after_append, after_append, after_append, after_append, L_v31,
    keepD_v4, keepC_v4, keepB_v4, A_v4,
    keepD_v14, C_v14, keepB_arg0, keepB_arg1, keepB_arg2, keepB_arg3, keepA_arg0, keepA_arg1, keepA_arg2, keepA_arg3,
    keepD_v9, keepC_v9, B_v9, keepA_arg0, keepA_arg1, keepA_arg2, keepA_arg3,
    D_v19, keepC_arg0, keepC_arg1, keepC_arg2, keepC_arg3, keepB_arg0, keepB_arg1, keepB_arg2, keepB_arg3, keepA_arg0, keepA_arg1, keepA_arg2, keepA_arg3]
  rfl

/-! ## The run -/

/-- Every weakly fair execution of the reference terminates with its result at `result` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v31).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c))⟩)
    (run_seq scopedRefs_eq scopedSems_eq defs main (fun _ => ops) main_eq (fun _ => ops_sub) m ρ)

end Cert.ReferenceIdeal.RefRun

end
-- ==== Proof.lean ====
/-
  The kernel computes one step of the inverse Haar wavelet transform — from four sub-band arrays of 8 × 64 images of
  256 × 256 pixels, the 8 × 64 images of 512 × 512 pixels whose pixel at row `R`, column `C` is one of four fixed
  combinations of the sub-bands at row `R / 2`, column `C / 2`, chosen by the parities of `R` and `C` — and so does the
  reference, with the same operations in the same order; they differ only in layout (the kernel merges the two leading axes
  and works on blocks of 4 images). So the two results are one function of the arguments, `Cert.Haar.result`
  (Proof/Spec.lean), at every float instance; no law of the arithmetic and no finiteness of the inputs is used.

  The parts: Proof/Interleave.lean reads the two interleaving layout operations at an index; Proof/Payload.lean shows the
  kernel body stores `blockResult` of its loaded blocks; Proof/KernelValue.lean reads the kernel's frame run at the result
  buffer (blocks to array, the reshapes before and after the region); Proof/RefRun.lean reads the reference's run at its
  result, in five short stretches of its 36 host operations. The two kernels' frames are the generated frame runs, the
  reference's is its run with the result dropped; the idealization rewrote nothing, so `preserves` is `True`.
-/
import proofs.«124878_j67044439490878_2_alg».proof.Defs
import proofs.«124878_j67044439490878_2_alg».proof.Proof.Gen.Kernel
import proofs.«124878_j67044439490878_2_alg».proof.Proof.Gen.Kernel.Skeleton
import proofs.«124878_j67044439490878_2_alg».proof.Proof.Gen.Kernel.Launch
import proofs.«124878_j67044439490878_2_alg».proof.Proof.Gen.Kernel.Points
import proofs.«124878_j67044439490878_2_alg».proof.Proof.Gen.Kernel.Frame
import proofs.«124878_j67044439490878_2_alg».proof.Proof.Gen.KernelIdeal
import proofs.«124878_j67044439490878_2_alg».proof.Proof.Gen.KernelIdeal.Skeleton
import proofs.«124878_j67044439490878_2_alg».proof.Proof.Gen.KernelIdeal.Launch
import proofs.«124878_j67044439490878_2_alg».proof.Proof.Gen.KernelIdeal.Points
import proofs.«124878_j67044439490878_2_alg».proof.Proof.Gen.KernelIdeal.Frame
import proofs.«124878_j67044439490878_2_alg».proof.Proof.Gen.ReferenceIdeal
import proofs.«124878_j67044439490878_2_alg».proof.Proof.Gen.Pre_finite_inputs
import proofs.«124878_j67044439490878_2_alg».proof.Proof.KernelValue
import proofs.«124878_j67044439490878_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the result buffer at `Cert.Haar.result` of arguments that agree. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
